-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x4096x2048 .f32) (main_arg1 : FVec F S2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4x4096x2048 : Shape := ⟨3, ![4, 4096, 2048]⟩
abbrev S2048x2048 : Shape := ⟨2, ![2048, 2048]⟩
abbrev S16384x2048 : Shape := ⟨2, ![16384, 2048]⟩
abbrev S_ : Shape := ⟨0, ![]⟩
abbrev S1x1 : Shape := ⟨2, ![1, 1]⟩
abbrev S512x2048 : Shape := ⟨2, ![512, 2048]⟩

abbrev nBuf : Space → Nat
  | .hbm => 20
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S16384x2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .bf16⟩
  | .hbm, ⟨17, _⟩ => ⟨S1x1, .f32⟩
  | .hbm, ⟨18, _⟩ => ⟨S16384x2048, .f32⟩
  | .hbm, ⟨19, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x1, .f32⟩
  | .local _ .vmem, ⟨4, _⟩ => ⟨S512x2048, .f32⟩
  | .local _ .vmem, ⟨5, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x2048_S16384x2048 : S4x4096x2048.ShapeCasts S16384x2048
  reducesTo_S2048x2048_S_d0_1 : S2048x2048.ReducesTo [0, 1] S_
  h_S_ : 0 < S_.numel
  bcast_S_S2048x2048 : S_.BroadcastsInDim S2048x2048 (![] : Fin 0 → Fin S2048x2048.rank)
  bitsLt_bf16_f32 : FTy.bits .bf16 < FTy.bits .f32
  shapeCasts_S_S1x1 : S_.ShapeCasts S1x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S16384x2048_S4x4096x2048 : S16384x2048.ShapeCasts S4x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.ScaleLaw.lean ====
/-
  The algebra that joins the two programs, on the extended reals, free of any program.

  Both programs quantize the weight matrix by one scale for the whole tensor: with `a = max |w|` the
  reference uses `s = a / 127` and contracts `x` against `round(w / s) * s`; the kernel guards the scale
  (`s' = 1` when `a = 0`, else `a / 127`), contracts `x` against the integers `round(w / s')` twice (once
  with `x`, once with the remainder `x - x` of a format change that is the identity here) and multiplies the
  sum by `s'` afterwards.

  Where `a ≠ 0` the two scales are one nonnegative real `s`; `x - x = 0` for finite `x`, and a
  nonnegative real factor distributes over ANY sum of extended reals, so `(∑ x·W)·s = ∑ x·(W·s)` whatever
  the rounded weights `W` are. Where `a = 0` every weight is `0`: the kernel rounds `0 / 1 = 0` to `0`, and the
  reference multiplies whatever it rounded by the scale `0`; both results are `0`.
-/
import Idealize.ShloMosaic.PureOps.Ideal

noncomputable section

namespace Cert.QuantLinear

open Idealize.ShloMosaic

/-! ## The float literals the two programs spell -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

/-! ## The two scales -/

/-- The reference's scale: the largest magnitude divided by `127`. -/
def refScale (a : EReal) : EReal := Ideal.div a (Ideal.ofBits .f32 0x42FE0000#32)

/-- The kernel's scale: `1` when the largest magnitude is `0`, the reference's scale otherwise. -/
def kerScale (a : EReal) : EReal :=
  Scalar.select (Ideal.cmp .oeq a (Ideal.ofBits .f32 0x00000000#32)) (Ideal.ofBits .f32 0x3F800000#32) (refScale a)

theorem refScale_eq (a : EReal) : refScale a = a * ((1 / 127 : ℝ) : EReal) := by
  unfold refScale; rw [ofBits_127]; exact Ideal.div_coe (by norm_num) a

theorem refScale_zero : refScale 0 = 0 := by rw [refScale_eq, zero_mul]

theorem kerScale_zero : kerScale 0 = 1 := by
  unfold kerScale Scalar.select Ideal.cmp
  rw [ofBits_zero, ofBits_one]
  simp

theorem kerScale_of_ne {a : EReal} (h : a ≠ 0) : kerScale a = refScale a := by
  unfold kerScale Scalar.select Ideal.cmp
  rw [ofBits_zero]
  simp [h]

theorem refScale_nonneg {a : EReal} (h : 0 ≤ a) : 0 ≤ refScale a := by
  rw [refScale_eq]
  exact mul_nonneg h (EReal.coe_nonneg.mpr (by norm_num))

theorem refScale_ne_top {a : EReal} (h0 : 0 ≤ a) (ht : a ≠ ⊤) : refScale a ≠ ⊤ := by
  rw [refScale_eq]
  lift a to ℝ using ⟨ht, fun hb => by rw [hb] at h0; exact absurd h0 (by simp)⟩
  rw [← EReal.coe_mul]
  exact EReal.coe_ne_top _

/-! ## A nonnegative real factor distributes over any finite sum of extended reals -/

theorem sum_mul_of_nonneg_of_ne_top {K : Type} (S : Finset K) (f : K → EReal) {s : EReal} (h0 : 0 ≤ s) (ht : s ≠ ⊤) :
    (∑ k ∈ S, f k) * s = ∑ k ∈ S, f k * s := by
  classical
  induction S using Finset.induction_on with
  | empty => simp
  | insert a S ha ih =>
    rw [Finset.sum_insert ha, Finset.sum_insert ha, EReal.right_distrib_of_nonneg_of_ne_top h0 ht, ih]

/-- Scaling after the contraction is scaling each weight before it: for finite `x` the remainder `x - x`
    vanishes, and the nonnegative real `s` moves inside the sum. -/
theorem dot_scale_law {K : Type} [Fintype K] (x W : K → EReal) {s : EReal} (hx : ∀ k, x k ≠ ⊤ ∧ x k ≠ ⊥)
    (h0 : 0 ≤ s) (ht : s ≠ ⊤) :
    (∑ k, x k * W k + ∑ k, (x k - x k) * W k) * s = ∑ k, x k * (W k * s) := by
  have hz : ∀ k, (x k - x k) * W k = 0 := fun k => by rw [EReal.sub_self (hx k).1 (hx k).2, zero_mul]
  simp only [hz, Finset.sum_const_zero, add_zero]
  rw [sum_mul_of_nonneg_of_ne_top _ _ h0 ht]
  exact Finset.sum_congr rfl fun k _ => mul_assoc _ _ _

/-! ## The two programs' element, as one value -/

/-- One element of the result, both ways. `R` is the rounding (it fixes `0`), `a` the largest magnitude of the
    weights — nonnegative, finite, and `0` only when every weight is —, `x` a row of the finite activations and
    `w` a row of the weights. -/
theorem quantized_dot_eq {K : Type} [Fintype K] (R : EReal → EReal) (hR : R 0 = 0) (x w : K → EReal) (a : EReal)
    (hx : ∀ k, x k ≠ ⊤ ∧ x k ≠ ⊥) (ha0 : 0 ≤ a) (hat : a ≠ ⊤) (hw : a = 0 → ∀ k, w k = 0) :
    (∑ k, x k * R (Ideal.div (w k) (kerScale a)) + ∑ k, (x k - x k) * R (Ideal.div (w k) (kerScale a))) * kerScale a
      = ∑ k, x k * (R (Ideal.div (w k) (refScale a)) * refScale a) := by
  by_cases h : a = 0
  · subst h
    have hw0 := hw rfl
    have hd : Ideal.div (0 : EReal) 1 = 0 := by unfold Ideal.div; rw [if_neg one_ne_zero, zero_mul]
    simp only [kerScale_zero, refScale_zero, hw0, hd, hR, mul_zero, Finset.sum_const_zero, add_zero, zero_mul]
  · rw [kerScale_of_ne h]
    exact dot_scale_law x _ hx (refScale_nonneg ha0) (refScale_ne_top ha0 hat)

end Cert.QuantLinear

end
-- ==== Proof.Finite.lean ====
/-
  The precondition, opened: it is the conjunction of two "all entries satisfy |v| < +∞" tests, one per argument
  array, each an and-reduction onto a one-index shape, so it holds exactly when every entry of both arrays
  passes the test; and an extended real whose magnitude `max v (-v)` is below `+∞` is neither `+∞` nor `-∞`.
-/
import proofs.«122858_j88605175316808_2_alg».proof.Pre_finite_inputs
import proofs.«122858_j88605175316808_2_alg».proof.Proof.ScaleLaw
import Idealize.ShloMosaic.Lib.ReduceAll
import Idealize.ShloMosaic.Lib.Affine
import Idealize.ShloMosaic.Lib.ValueIdx
import Idealize.ShloMosaic.PureOps.Ideal

noncomputable section

namespace Cert.QuantLinear

open Idealize.ShloMosaic

/-- An entry that passes the test `|v| < +∞` is finite. -/
theorem finite_of_test {v : EReal}
    (h : Ideal.cmp .olt (max v (-v)) (Ideal.ofBits .f32 0x7F800000#32) = 1#1) : v ≠ ⊤ ∧ v ≠ ⊥ := by
  have hlt : max v (-v) < ⊤ := by
    by_contra hn
    rw [ofBits_pos_inf] at h
    simp only [Ideal.cmp, hn, decide_false] at h
    exact absurd h (by decide)
  constructor
  · intro e; rw [e] at hlt; simp at hlt
  · intro e; rw [e] at hlt; simp at hlt

instance : Subsingleton Cert.Pre_finite_inputs.S_.Idx := ⟨fun _ _ => funext fun d => d.elim0⟩

/-- Under the precondition every entry of both argument arrays is finite. -/
theorem finite_of_pre [Cert.Pre_finite_inputs.Facts] (x : FVec Ideal Cert.Pre_finite_inputs.S4x4096x2048 .f32)
    (w : FVec Ideal Cert.Pre_finite_inputs.S2048x2048 .f32)
    (h : Cert.Pre_finite_inputs.fn (F := Ideal) x w = fun _ => 1#1) :
    (∀ i, x i ≠ ⊤ ∧ x i ≠ ⊥) ∧ (∀ i, w i ≠ ⊤ ∧ w i ≠ ⊥) := by
  have h0 := congrFun h ValueIdx.ix0
  dsimp only [Cert.Pre_finite_inputs.fn] at h0
  obtain ⟨hx, hw⟩ := IntOp.andi_eq_one.mp h0
  exact ⟨fun i => finite_of_test (Host.reduce_andi_all _ _ _ _ _ hx i),
    fun i => finite_of_test (Host.reduce_andi_all _ _ _ _ _ hw i)⟩

end Cert.QuantLinear

end
-- ==== Proof.Body.lean ====
/-
  What one grid point leaves in the output window's buffer, read at an entry `(p, q)` on the extended reals.
  With `x` the point's 512 × 2048 block of activations, `W` the whole 2048 × 2048 array of rounded weights
  (row `q` holds output feature `q`, contracted along its second axis) and `s` the 1 × 1 scale:
      out (p, q) = (∑ₖ x (p, k) · W (q, k)  +  ∑ₖ (x (p, k) − x (p, k)) · W (q, k)) · s (0, 0)   (`cell` below).
  The first sum is the matrix product of the block narrowed to the shorter float format — the identity
  here — and the second that of the remainder the narrowing left.
-/
import proofs.«122858_j88605175316808_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

theorem hz : (![0, 0] : Fin 2 → Nat) = fun _ => 0 := funext fun a => by fin_cases a <;> rfl

/-- One entry of the output, from a row `A` of activations, a row `B` of rounded weights and the scale `C`. -/
def cell (A B : Fin 2048 → EReal) (C : EReal) : EReal :=
  (∑ k : Fin 2048, A k * B k + ∑ k : Fin 2048, (A k - A k) * B k) * C

theorem cell_congr {A A' B B' : Fin 2048 → EReal} {C C' : EReal} (hA : ∀ k, A k = A' k) (hB : ∀ k, B k = B' k)
    (hC : C = C') : cell A B C = cell A' B' C' := by
  obtain rfl : A = A' := funext hA
  obtain rfl : B = B' := funext hB
  rw [hC]

/-- The left operand's index at output `(p, q)` and contraction position `k`: row `p`. -/
theorem lhs_row (i : S512x2048.Idx) (k : dot_S512x2048_S2048x2048_S512x2048_1_1_0_0_n_n.contr.Idx) :
    (dot_S512x2048_S2048x2048_S512x2048_1_1_0_0_n_n.lhsIdx i k 0).val = (i 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl

/-- The right operand's: row `q`, the output's column. -/
theorem rhs_row (i : S512x2048.Idx) (k : dot_S512x2048_S2048x2048_S512x2048_1_1_0_0_n_n.contr.Idx) :
    (dot_S512x2048_S2048x2048_S512x2048_1_1_0_0_n_n.rhsIdx i k 0).val = (i 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl

/-- The kernel's matrix product into a zero accumulator at `(p, q)`: row `p` of the left operand against row `q` of
    the right one. -/
theorem matmul_at {φ₁ φ₂ : FTy} (l : FVec Ideal S512x2048 φ₁) (r : FVec Ideal S2048x2048 φ₂) (p : Fin 512) (q : Fin 2048) :
    matmul dot_S512x2048_S2048x2048_S512x2048_1_1_0_0_n_n none l r (constant (F := Ideal) S512x2048 .f32 0x00000000#32) (ix2 p q)
      = ∑ k : Fin 2048, l (ix2 p k) * r (ix2 q k) := by
  simp only [matmul]
  rw [Ideal.matmul_constant_zero_apply,
    ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p q)
      ((ValueIdx.contrEquiv1 dot_S512x2048_S2048x2048_S512x2048_1_1_0_0_n_n 2048 rfl rfl).symm k) = ix2 p k :=
    funext fun a => Fin.ext (by
      match a with
      | ⟨0, _⟩ => exact lhs_row _ _
      | ⟨1, _⟩ => exact (dot_S512x2048_S2048x2048_S512x2048_1_1_0_0_n_n.lhsIdx_val_of_single rfl _ _).trans hk)
  have er : dot_S512x2048_S2048x2048_S512x2048_1_1_0_0_n_n.rhsIdx (ix2 p q)
      ((ValueIdx.contrEquiv1 dot_S512x2048_S2048x2048_S512x2048_1_1_0_0_n_n 2048 rfl rfl).symm k) = ix2 q k :=
    funext fun a => Fin.ext (by
      match a with
      | ⟨0, _⟩ => exact rhs_row _ _
      | ⟨1, _⟩ => exact (dot_S512x2048_S2048x2048_S512x2048_1_1_0_0_n_n.rhsIdx_val_of_single rfl _ _).trans hk)
  rw [el, er]

/-- The body's stored value at `(p, q)`. -/
theorem pay_apply (x0 : Vec Ideal S512x2048 .f32) (x1 : Vec Ideal S2048x2048 .bf16) (x2 : Vec Ideal S1x1 .f32)
    (p : Fin 512) (q : Fin 2048) :
    (k0_pay1 x0 x1 x2 : S512x2048.Idx → EReal) (ix2 p q)
      = cell (fun k => x0 (ix2 p k)) (fun k => x1 (ix2 q k)) (x2 (ix2 (0 : Fin 1) (0 : Fin 1))) := by
  unfold k0_pay1 cell
  rw [shapeCast_self, shapeCast_self]
  rw [mulf_apply, addf_apply, matmul_at, matmul_at, broadcast_apply]
  have e : extractAt ![0, 0] x2 inpos_S1x1_p0_0 = x2 (ix2 (0 : Fin 1) (0 : Fin 1)) := by
    unfold extractAt
    exact congrArg x2 (funext fun a => Fin.ext (by match a with | ⟨0, _⟩ => rfl | ⟨1, _⟩ => rfl))
  rw [e]
  rfl

/-- What the point leaves in the output window's buffer, at `(p, q)`: the one store covers the buffer. -/
theorem out_apply (x0 : Vec Ideal S512x2048 .f32) (x1 : Vec Ideal S2048x2048 .bf16) (x2 : Vec Ideal S1x1 .f32)
    (p : Fin 512) (q : Fin 2048) :
    (out0_3 x0 x1 x2 : S512x2048.Idx → EReal) (ix2 p q)
      = cell (fun k => x0 (ix2 p k)) (fun k => x1 (ix2 q k)) (x2 (ix2 (0 : Fin 1) (0 : Fin 1))) := by
  unfold out0_3
  rw [View.canon_unit_zero hz]
  simp only [View.ld_unit_zero (S := S512x2048) hz, View.ld_unit_zero (S := S2048x2048) hz, View.ld_unit_zero (S := S1x1) hz]
  exact pay_apply x0 x1 x2 p q

end Cert.KernelIdeal.Body

end
-- ==== Proof.Blocks.lean ====
/-
  From the grid's 32 points to the whole output array. Point `t` stages rows `512 t … 512 t + 511` of the
  activations, the whole array of rounded weights and the 1 × 1 scale, and writes back rows `512 t … 512 t + 511`
  of the output. Entry `(p, q)` of what it writes back depends on row `512 t + p` of the activations, row `q` of
  the rounded weights and the scale: it is entry `(512 t + p, q)` of ONE function `G` of the three arrays. The
  32 blocks tile the 16384 rows (row `r` is in block `r / 512`), so after the run the array is `G`.
-/
import proofs.«122858_j88605175316808_2_alg».proof.Proof.Body
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Entry `(r, n)` of the output as a function of the re-laid activations `X`, the rounded weights `W` and the
    1 × 1 scale `S`. -/
def Gat (X : S16384x2048.Idx → EReal) (W : S2048x2048.Idx → EReal) (S : S1x1.Idx → EReal) (r : Fin 16384) (n : Fin 2048) : EReal :=
  Body.cell (fun k => X (ix2 r k)) (fun k => W (ix2 n k)) (S (ix2 (0 : Fin 1) (0 : Fin 1)))

/-- The whole [16384, 2048] output as one function of the three arrays. -/
def G (X : S16384x2048.Idx → EReal) (W : S2048x2048.Idx → EReal) (S : S1x1.Idx → EReal) : S16384x2048.Idx → EReal :=
  fun i => Gat X W S ⟨(i 0).val, idx2_lt0 i⟩ ⟨(i 1).val, idx2_lt1 i⟩

theorem G_ix2 (X : S16384x2048.Idx → EReal) (W : S2048x2048.Idx → EReal) (S : S1x1.Idx → EReal) (r : Fin 16384) (n : Fin 2048) :
    G X W S (ix2 r n) = Gat X W S r n := rfl

/-- The printed index maps over the 32 points: the activations' and the output's blocks move down the rows
    together, one block per point; the weights' and the scale's stay. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every block row is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-! ## The staged blocks, read at an entry -/

/-- The contents the region finds depend on the buffer only through its reference. -/
theorem V_congr (c : Dev nD) {b b' : Ref sig .tc} (h : b = b') : HEq (V m c b) (V m c b') := by subst h; rfl

/-- The first three windows stage the re-laid activations, the rounded weights and the scale. -/
theorem V_arr0 (c : Dev nD) : (V m c (Pipeline.arrRef spec0 0) : S16384x2048.Idx → EReal) = V m c main_v0 :=
  eq_of_heq (V_congr m c rfl)
theorem V_arr1 (c : Dev nD) : (V m c (Pipeline.arrRef spec0 1) : S2048x2048.Idx → EReal) = V m c main_v9 :=
  eq_of_heq (V_congr m c rfl)
theorem V_arr2 (c : Dev nD) : (V m c (Pipeline.arrRef spec0 2) : S1x1.Idx → EReal) = V m c main_v10 :=
  eq_of_heq (V_congr m c rfl)

/-- The first window's block at point `t`, read off ANY array `X`: its row `p` is row
    `R = (block row of t) · 512 + p` of `X`. -/
theorem read0 (X : S16384x2048.Idx → EReal) (t : Fin cfg0.N) (p : Fin 512) (k : Fin 2048) (R : Fin 16384)
    (hR : R.val = win0_3.index t (0 : Fin 2) * 512 + p.val) :
    (((cfg0.win 0).blk t).view.read (Elt Ideal) X (ix2 p k) : EReal) = X (ix2 R k) := by
  obtain ⟨e00, e01, -⟩ := idx_facts t
  show X (((cfg0.win 0).blk t).view.emb (ix2 p k)) = _
  have h : ((cfg0.win 0).blk t).view.emb (ix2 p k) = ix2 R k := by
    funext a; apply Fin.ext
    match a with
    | ⟨0, _⟩ => show win0_0.index t (0 : Fin 2) * 512 + 1 * p.val = R.val; omega
    | ⟨1, _⟩ => show win0_0.index t (1 : Fin 2) * 2048 + 1 * k.val = k.val; omega
  rw [h]

/-- The second window's block is the whole array at every point. -/
theorem read1 (X : S2048x2048.Idx → EReal) (t : Fin cfg0.N) (q k : Fin 2048) :
    (((cfg0.win 1).blk t).view.read (Elt Ideal) X (ix2 q k) : EReal) = X (ix2 q k) := by
  obtain ⟨-, -, e10, e11, -⟩ := idx_facts t
  show X (((cfg0.win 1).blk t).view.emb (ix2 q k)) = _
  have h : ((cfg0.win 1).blk t).view.emb (ix2 q k) = ix2 q k := by
    funext a; apply Fin.ext
    match a with
    | ⟨0, _⟩ => show win0_1.index t (0 : Fin 2) * 2048 + 1 * q.val = q.val; omega
    | ⟨1, _⟩ => show win0_1.index t (1 : Fin 2) * 2048 + 1 * k.val = k.val; omega
  rw [h]

/-- So is the third's. -/
theorem read2 (X : S1x1.Idx → EReal) (t : Fin cfg0.N) :
    (((cfg0.win 2).blk t).view.read (Elt Ideal) X (ix2 (0 : Fin 1) (0 : Fin 1)) : EReal) = X (ix2 (0 : Fin 1) (0 : Fin 1)) := by
  obtain ⟨-, -, -, -, e20, e21, -⟩ := idx_facts t
  show X (((cfg0.win 2).blk t).view.emb (ix2 (0 : Fin 1) (0 : Fin 1))) = _
  have h : ((cfg0.win 2).blk t).view.emb (ix2 (0 : Fin 1) (0 : Fin 1)) = ix2 (0 : Fin 1) (0 : Fin 1) := by
    funext a; apply Fin.ext
    match a with
    | ⟨0, _⟩ => show win0_2.index t (0 : Fin 2) * 1 + 1 * 0 = 0; omega
    | ⟨1, _⟩ => show win0_2.index t (1 : Fin 2) * 1 + 1 * 0 = 0; omega
  rw [h]

/-- The activations' block at point `t`, read off the array the region finds. -/
theorem read_x (c : Dev nD) (t : Fin cfg0.N) (p : Fin 512) (k : Fin 2048) (R : Fin 16384)
    (hR : R.val = win0_3.index t (0 : Fin 2) * 512 + p.val) :
    (iblk m c 0 t (ix2 p k) : EReal) = V m c main_v0 (ix2 R k) := by
  unfold iblk
  exact (read0 (V m c (Pipeline.arrRef spec0 0)) t p k R hR).trans (congrFun (V_arr0 m c) (ix2 R k))

/-- The rounded weights' block. -/
theorem read_w (c : Dev nD) (t : Fin cfg0.N) (q k : Fin 2048) :
    (iblk m c 1 t (ix2 q k) : EReal) = V m c main_v9 (ix2 q k) := by
  unfold iblk
  exact (read1 (V m c (Pipeline.arrRef spec0 1)) t q k).trans (congrFun (V_arr1 m c) (ix2 q k))

/-- The scale's block. -/
theorem read_s (c : Dev nD) (t : Fin cfg0.N) :
    (iblk m c 2 t (ix2 (0 : Fin 1) (0 : Fin 1)) : EReal) = V m c main_v10 (ix2 (0 : Fin 1) (0 : Fin 1)) := by
  unfold iblk
  exact (read2 (V m c (Pipeline.arrRef spec0 2)) t).trans (congrFun (V_arr2 m c) (ix2 (0 : Fin 1) (0 : Fin 1)))

/-! ## What a point writes back, and the whole array -/

/-- WHAT POINT `t` WRITES BACK is block `t` of `G` of the three arrays as the region finds them. -/
theorem flushed_eq (c : Dev nD) (t : Fin cfg0.N) :
    (dats m 0 c).flushed 3 t
      = ((cfg0.win 3).blk t).view.read (Elt Ideal) (G (V m c main_v0) (V m c main_v9) (V m c main_v10)) := by
  show (cfg0.win 3).cut (grid0.coords t) ((dats m 0 c).after 3 t) = _
  rw [after0_3]
  obtain ⟨-, -, -, -, -, -, e31, e3le⟩ := idx_facts t
  funext j
  obtain ⟨p, q, rfl⟩ : ∃ (p : Fin 512) (q : Fin 2048), j = ix2 p q := ⟨j 0, j 1, eq_ix2 j⟩
  show out0_3 (iblk m c 0 t) (iblk m c 1 t) (iblk m c 2 t) (ix2 p q)
    = G (V m c main_v0) (V m c main_v9) (V m c main_v10) (((cfg0.win 3).blk t).view.emb (ix2 p q))
  have hR : win0_3.index t (0 : Fin 2) * 512 + p.val < 16384 := by have := p.isLt; omega
  have h3 : ((cfg0.win 3).blk t).view.emb (ix2 p q) = ix2 (⟨win0_3.index t (0 : Fin 2) * 512 + p.val, hR⟩ : Fin 16384) q := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 2048 + 1 * q.val = q.val; omega
  rw [h3, G_ix2]
  refine (Body.out_apply (iblk m c 0 t) (iblk m c 1 t) (iblk m c 2 t) p q).trans ?_
  exact Body.cell_congr (fun k => read_x m c t p k ⟨win0_3.index t (0 : Fin 2) * 512 + p.val, hR⟩ rfl)
    (fun k => read_w m c t q k) (read_s m c t)

/-- An index of the array is in point `t`'s block iff each coordinate is in the block's range on its axis. -/
theorem mem_blk (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v11).slice (win0_3.rect t)).set ↔ _
  rw [View.set_slice_whole, Rect.mem_set_unit]
  exact Iff.rfl

/-- The blocks tile the array: row `r` lies in the block of point `r / 512`. -/
theorem cover (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE OUTPUT ARRAY after the run is `G` of the three arrays the region found. -/
theorem final (c : Dev nD) :
    (dats m 0 c).arrAt 3 cfg0.N = G (V m c main_v0) (V m c main_v9) (V m c main_v10) :=
  (dats m 0 c).arrAt_eq_of_cover 3 (G (V m c main_v0) (V m c main_v9) (V m c main_v10)) (fun t _ => flushed_eq m c t) cover

end Cert.KernelIdeal.Blocks

end
-- ==== Proof.Entry.lean ====
/-
  What the region finds in the three arrays its input windows stage, as terms of @main's two arguments:
  the activations re-laid from [4, 4096, 2048] to [16384, 2048]; the weights divided by the guarded scale and
  rounded (the change to the narrower float format is the identity on the extended reals); and the guarded
  scale itself as a [1, 1] array.

  The largest magnitude enters only through the function `absmaxFn` that reduces an array to it: what the
  region finds is established for ANY reducing function `f` in its place, since none of the other host
  operations looks inside the reduction, and then read at `f = absmaxFn`.
-/
import proofs.«122858_j88605175316808_2_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The max-reduce over both axes, from an initial value. -/
def absmaxFn : (⟨S2048x2048, .f32⟩ : BufTy).Contents (Elt Ideal) → (⟨S_, .f32⟩ : BufTy).Contents (Elt Ideal) → (⟨S_, .f32⟩ : BufTy).Contents (Elt Ideal) :=
  fun x v => Host.reduce (FloatOps.maximumf (F := Ideal) (φ := .f32)) x v reducesTo_S2048x2048_S_d0_1 h_S_

/-- The kernel's scale from the largest magnitude `A` (a rank-0 array): `1` where `A = 0`, else `A / 127`. -/
def scaleOf (A : FVec Ideal S_ .f32) : FVec Ideal S_ .f32 :=
  select (cmpf .oeq A (constant (F := Ideal) S_ .f32 0x00000000#32)) (id (constant (F := Ideal) S_ .f32 0x3F800000#32))
    (Host.divf A (constant (F := Ideal) S_ .f32 0x42FE0000#32))

/-- The largest magnitude of the weights `w`, by the reducing function `f`. -/
def absmaxBy (f : FVec Ideal S2048x2048 .f32 → FVec Ideal S_ .f32 → FVec Ideal S_ .f32) (w : FVec Ideal S2048x2048 .f32) :
    FVec Ideal S_ .f32 :=
  f (Host.absf w) (constant (F := Ideal) S_ .f32 0xFF800000#32)

/-- The rounded weights `round (w / scale)`, the scale taken from the largest magnitude `A`. -/
def wqOf (A : FVec Ideal S_ .f32) (w : FVec Ideal S2048x2048 .f32) : FVec Ideal S2048x2048 .bf16 :=
  truncf .bf16 (Host.roundeven (Host.divf w (broadcastInDim S2048x2048 ![] bcast_S_S2048x2048 (scaleOf A)))) bitsLt_bf16_f32

/-- The first stretch of host operations, with the reducing function named. -/
theorem hostOps0_eq : (hostOps0 : List (HloOp τ sig (Elt Ideal))) =
  [ StableHlo.reshape main_arg0 main_v0 rfl shapeCasts_S4x4096x2048_S16384x2048,
    StableHlo.unary main_arg1 main_v1 (Host.absf (F := Ideal) (φ := .f32) : (⟨S2048x2048, .f32⟩ : BufTy).Contents (Elt Ideal) → (⟨S2048x2048, .f32⟩ : BufTy).Contents (Elt Ideal)),
    StableHlo.nullary main_cst (constant (F := Ideal) S_ .f32 0xFF800000#32),
    StableHlo.binary main_v1 main_cst main_v2 absmaxFn,
    StableHlo.nullary main_cst_0 (constant (F := Ideal) S_ .f32 0x00000000#32),
    StableHlo.binary main_v2 main_cst_0 main_v3 (cmpf (F := Ideal) (φ := .f32) .oeq : (⟨S_, .f32⟩ : BufTy).Contents (Elt Ideal) → (⟨S_, .f32⟩ : BufTy).Contents (Elt Ideal) → (⟨S_, .i1⟩ : BufTy).Contents (Elt Ideal)),
    StableHlo.nullary main_cst_1 (constant (F := Ideal) S_ .f32 0x42FE0000#32),
    StableHlo.binary main_v2 main_cst_1 main_v4 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    StableHlo.nullary main_cst_2 (constant (F := Ideal) S_ .f32 0x3F800000#32) ] := rfl

theorem V_x (c : Dev nD) : (V m c main_v0 : S16384x2048.Idx → EReal)
    = fun i => shapeCast S16384x2048 (m ((c : Thread nD τ).loc main_arg0)) shapeCasts_S4x4096x2048_S16384x2048 i := by
  dsimp only [V, V0]
  rw [hostOps0_eq]
  generalize absmaxFn = f
  simp only [hostOps0_1, hostOps0_2, hostOps0_3, hostOps0_4, List.flatten_cons, List.flatten_nil, List.append_nil,
    List.cons_append, List.nil_append]
  after_results
  rfl

/-- The [1, 1] scale array, for ANY reducing function. -/
theorem V_scale_by (c : Dev nD) (f : FVec Ideal S2048x2048 .f32 → FVec Ideal S_ .f32 → FVec Ideal S_ .f32) :
    (StableHlo.after (List.flatten [[ StableHlo.reshape main_arg0 main_v0 rfl shapeCasts_S4x4096x2048_S16384x2048,
      StableHlo.unary main_arg1 main_v1 (Host.absf (F := Ideal) (φ := .f32) : (⟨S2048x2048, .f32⟩ : BufTy).Contents (Elt Ideal) → (⟨S2048x2048, .f32⟩ : BufTy).Contents (Elt Ideal)),
      StableHlo.nullary main_cst (constant (F := Ideal) S_ .f32 0xFF800000#32),
      StableHlo.binary main_v1 main_cst main_v2 f,
      StableHlo.nullary main_cst_0 (constant (F := Ideal) S_ .f32 0x00000000#32),
      StableHlo.binary main_v2 main_cst_0 main_v3 (cmpf (F := Ideal) (φ := .f32) .oeq : (⟨S_, .f32⟩ : BufTy).Contents (Elt Ideal) → (⟨S_, .f32⟩ : BufTy).Contents (Elt Ideal) → (⟨S_, .i1⟩ : BufTy).Contents (Elt Ideal)),
      StableHlo.nullary main_cst_1 (constant (F := Ideal) S_ .f32 0x42FE0000#32),
      StableHlo.binary main_v2 main_cst_1 main_v4 (Host.divf (F := Ideal) (φ := .f32) : (⟨S_, .f32⟩ : BufTy).Contents (Elt Ideal) → (⟨S_, .f32⟩ : BufTy).Contents (Elt Ideal) → (⟨S_, .f32⟩ : BufTy).Contents (Elt Ideal)),
      StableHlo.nullary main_cst_2 (constant (F := Ideal) S_ .f32 0x3F800000#32) ], hostOps0_1, hostOps0_2, hostOps0_3, hostOps0_4])
        (fun b => m (c, b)) (Proc.devRef .tc main_v10) : S1x1.Idx → EReal)
    = fun i => shapeCast S1x1 (scaleOf (absmaxBy f (m ((c : Thread nD τ).loc main_arg1)))) shapeCasts_S_S1x1 i := by
  simp only [hostOps0_1, hostOps0_2, hostOps0_3, hostOps0_4, List.flatten_cons, List.flatten_nil, List.append_nil,
    List.cons_append, List.nil_append]
  after_results
  rfl

/-- The rounded weights, for ANY reducing function. -/
theorem V_wq_by (c : Dev nD) (f : FVec Ideal S2048x2048 .f32 → FVec Ideal S_ .f32 → FVec Ideal S_ .f32) :
    (StableHlo.after (List.flatten [[ StableHlo.reshape main_arg0 main_v0 rfl shapeCasts_S4x4096x2048_S16384x2048,
      StableHlo.unary main_arg1 main_v1 (Host.absf (F := Ideal) (φ := .f32) : (⟨S2048x2048, .f32⟩ : BufTy).Contents (Elt Ideal) → (⟨S2048x2048, .f32⟩ : BufTy).Contents (Elt Ideal)),
      StableHlo.nullary main_cst (constant (F := Ideal) S_ .f32 0xFF800000#32),
      StableHlo.binary main_v1 main_cst main_v2 f,
      StableHlo.nullary main_cst_0 (constant (F := Ideal) S_ .f32 0x00000000#32),
      StableHlo.binary main_v2 main_cst_0 main_v3 (cmpf (F := Ideal) (φ := .f32) .oeq : (⟨S_, .f32⟩ : BufTy).Contents (Elt Ideal) → (⟨S_, .f32⟩ : BufTy).Contents (Elt Ideal) → (⟨S_, .i1⟩ : BufTy).Contents (Elt Ideal)),
      StableHlo.nullary main_cst_1 (constant (F := Ideal) S_ .f32 0x42FE0000#32),
      StableHlo.binary main_v2 main_cst_1 main_v4 (Host.divf (F := Ideal) (φ := .f32) : (⟨S_, .f32⟩ : BufTy).Contents (Elt Ideal) → (⟨S_, .f32⟩ : BufTy).Contents (Elt Ideal) → (⟨S_, .f32⟩ : BufTy).Contents (Elt Ideal)),
      StableHlo.nullary main_cst_2 (constant (F := Ideal) S_ .f32 0x3F800000#32) ], hostOps0_1, hostOps0_2, hostOps0_3, hostOps0_4])
        (fun b => m (c, b)) (Proc.devRef .tc main_v9) : S2048x2048.Idx → EReal)
    = wqOf (absmaxBy f (m ((c : Thread nD τ).loc main_arg1))) (m ((c : Thread nD τ).loc main_arg1)) := by
  simp only [hostOps0_1, hostOps0_2, hostOps0_3, hostOps0_4, List.flatten_cons, List.flatten_nil, List.append_nil,
    List.cons_append, List.nil_append]
  after_results
  rfl

/-- The [1, 1] array the third window stages: the guarded scale. -/
theorem V_scale (c : Dev nD) : (V m c main_v10 : S1x1.Idx → EReal)
    = fun i => shapeCast S1x1 (scaleOf (absmaxBy absmaxFn (m ((c : Thread nD τ).loc main_arg1)))) shapeCasts_S_S1x1 i := by
  dsimp only [V, V0]
  rw [hostOps0_eq]
  exact V_scale_by m c absmaxFn

/-- The [2048, 2048] array the second window stages: the rounded weights. -/
theorem V_wq (c : Dev nD) : (V m c main_v9 : S2048x2048.Idx → EReal)
    = wqOf (absmaxBy absmaxFn (m ((c : Thread nD τ).loc main_arg1))) (m ((c : Thread nD τ).loc main_arg1)) := by
  dsimp only [V, V0]
  rw [hostOps0_eq]
  exact V_wq_by m c absmaxFn

end Cert.KernelIdeal.Entry

end
-- ==== Proof.Spec.lean ====
/-
  The kernel program's result as ONE function of the two argument arrays: the [16384, 2048] array `G` of the
  re-laid activations, the rounded weights and the guarded scale, re-laid to [4, 4096, 2048]. The kernel's run
  and the comparison with the reference are both stated with this name.
-/
import proofs.«122858_j88605175316808_2_alg».proof.Proof.Blocks
import proofs.«122858_j88605175316808_2_alg».proof.Proof.Entry

noncomputable section

namespace Cert.KernelIdeal.Spec

open Cert.KernelIdeal Idealize.ShloMosaic

/-- The output array of the region. -/
def out2Of (x : FVec Ideal S4x4096x2048 .f32) (w : FVec Ideal S2048x2048 .f32) : S16384x2048.Idx → EReal :=
  Blocks.G (fun j => shapeCast S16384x2048 x Facts₀.shapeCasts_S4x4096x2048_S16384x2048 j)
    (Entry.wqOf (Entry.absmaxBy Entry.absmaxFn w) w)
    (fun j => shapeCast S1x1 (Entry.scaleOf (Entry.absmaxBy Entry.absmaxFn w)) Facts₀.shapeCasts_S_S1x1 j)

/-- The program's result. -/
def resultOf (x : FVec Ideal S4x4096x2048 .f32) (w : FVec Ideal S2048x2048 .f32) : S4x4096x2048.Idx → EReal :=
  fun i => shapeCast S4x4096x2048 (out2Of x w) Facts₀.shapeCasts_S16384x2048_S4x4096x2048 i

end Cert.KernelIdeal.Spec

end
-- ==== Proof.KernelRun.lean ====
/-
  The kernel program's run, read: after the region the one remaining host operation re-lays the [16384, 2048]
  output array to [4, 4096, 2048]. So every execution ends with the result buffer at that re-laying of `G` of
  the re-laid activations, the rounded weights and the guarded scale — all three as functions of the two
  arguments — and with both argument arrays unchanged.
-/
import proofs.«122858_j88605175316808_2_alg».proof.Proof.Blocks
import proofs.«122858_j88605175316808_2_alg».proof.Proof.Entry
import proofs.«122858_j88605175316808_2_alg».proof.Proof.Spec
import Idealize.ShloMosaic.Lib.StableHlo.Run

noncomputable section

namespace Cert.KernelIdeal.KernelRun

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The [16384, 2048] output array after the region, as a function of the two arguments. -/
def out2 (c : Dev nD) : S16384x2048.Idx → EReal :=
  Spec.out2Of (m ((c : Thread nD τ).loc main_arg0)) (m ((c : Thread nD τ).loc main_arg1))

/-- The result buffer's contents after the run, on core `c`. -/
def result (c : Dev nD) : S4x4096x2048.Idx → EReal :=
  Spec.resultOf (m ((c : Thread nD τ).loc main_arg0)) (m ((c : Thread nD τ).loc main_arg1))

/-- The output array after the region, with the three staged arrays read back as functions of the arguments. -/
theorem final (c : Dev nD) : ((dats m 0 c).arrAt 3 cfg0.N : S16384x2048.Idx → EReal) = out2 m c := by
  rw [Blocks.final, Entry.V_x, Entry.V_wq, Entry.V_scale]
  rfl

/-- The host operation after the region re-lays whatever array `G0` the region left. -/
theorem tail_of (c : Dev nD) (G0 : S16384x2048.Idx → EReal)
    (hfinal : ((dats m 0 c).arrAt 3 cfg0.N : S16384x2048.Idx → EReal) = G0) :
    (Pipeline.afterTail₀ cfgs (dats m) 0 (V0 m) [hostOps1] c main_v12 : S4x4096x2048.Idx → EReal)
      = fun i => shapeCast S4x4096x2048 G0 shapeCasts_S16384x2048_S4x4096x2048 i := by
  unfold Pipeline.afterTail₀
  show StableHlo.after hostOps1 _ (Proc.devRef .tc main_v12) = _
  after_results
  have e : (Pipeline.withArrays spec0 c (V0 m c) (fun w => (dats m 0 c).arrAt w cfg0.N) (Proc.devRef .tc main_v11) : S16384x2048.Idx → EReal) = G0 :=
    (Pipeline.withArrays_arr spec0 launch0.win.arr_inj c _ _ 3).trans hfinal
  rw [e]
  rfl

/-- The run: the result at `result`, the arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v12 (Pipeline.mem_restRefs_of main_v12 (by decide) (by decide))).trans (tail_of m c (out2 m c) (final m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelRun

end
-- ==== Proof.AbsMax.lean ====
/-
  The largest magnitude of an array, as the host computes it: `a = max` over every index `i` of `|w i|`, folded
  from `-∞`. Reducing to a shape with one index, every source index takes part, so `a` bounds each `|w i|`.
  Hence `a ≥ 0` (there is an index, and a magnitude is nonnegative), `a` is finite when every `w i` is (a
  maximum of finitely many finite numbers), and `a = 0` forces `|w i| ≤ 0`, that is `w i = 0`, everywhere.
-/
import Idealize.ShloMosaic.PureOps.Ideal.Laws
import Idealize.ShloMosaic.PureOps.Reduce

noncomputable section

namespace Cert.QuantLinear

open Idealize.ShloMosaic

/-- A magnitude `max x (-x)` is nonnegative. -/
theorem abs_nonneg' (x : EReal) : 0 ≤ max x (-x) := by
  rcases le_total 0 x with h | h
  · exact le_max_of_le_left h
  · exact le_max_of_le_right (by rw [EReal.le_neg, neg_zero]; exact h)

/-- A magnitude that is at most `0` is of `0`. -/
theorem eq_zero_of_abs_le {x : EReal} (h : max x (-x) ≤ 0) : x = 0 := by
  have h1 : x ≤ 0 := (max_le_iff.mp h).1
  have h2 : -x ≤ 0 := (max_le_iff.mp h).2
  rw [EReal.neg_le, neg_zero] at h2
  exact le_antisymm h1 h2

/-- A finite number's magnitude is below `+∞`. -/
theorem abs_lt_top {x : EReal} (ht : x ≠ ⊤) (hb : x ≠ ⊥) : max x (-x) < ⊤ := by
  refine max_lt (lt_top_iff_ne_top.mpr ht) (lt_top_iff_ne_top.mpr ?_)
  intro h
  exact hb (by rw [← neg_neg x, h, EReal.neg_top])

/-- The host's max-reduce of the magnitudes from `-∞` onto a one-index shape, read as the fold of `max` over
    every source index. -/
theorem absmax_eq_fold {s t u : Shape} {axes : List (Fin s.rank)} [Subsingleton t.Idx] (h : s.ReducesTo axes t)
    (hu : 0 < u.numel) (w : FVec Ideal s .f32) (j : t.Idx) :
    Host.reduce (FloatOps.maximumf (F := Ideal) (φ := .f32)) (Host.absf w) (constant (F := Ideal) u .f32 0xFF800000#32) h hu j
      = (Finset.univ : Finset s.Idx).fold max (Ideal.ofBits .f32 0xFF800000#32) (fun i => max (w i) (-(w i))) := by
  rw [Host.reduce_eq_fold]
  rw [Finset.filter_true_of_mem (fun i _ => Subsingleton.elim _ _)]
  rfl

/-- What the proof uses of the largest magnitude `a`: it is nonnegative, finite when every entry is, and `0`
    only when every entry is `0`. -/
theorem absmax_facts {s t u : Shape} {axes : List (Fin s.rank)} [Subsingleton t.Idx] (h : s.ReducesTo axes t)
    (hu : 0 < u.numel) (w : FVec Ideal s .f32) (j : t.Idx) (i0 : s.Idx) (hw : ∀ i, w i ≠ ⊤ ∧ w i ≠ ⊥)
    (hbot : Ideal.ofBits .f32 0xFF800000#32 = ⊥) :
    let a := Host.reduce (FloatOps.maximumf (F := Ideal) (φ := .f32)) (Host.absf w) (constant (F := Ideal) u .f32 0xFF800000#32) h hu j
    0 ≤ a ∧ a ≠ ⊤ ∧ (a = 0 → ∀ i, w i = 0) := by
  intro a
  have ha : a = (Finset.univ : Finset s.Idx).fold max ⊥ (fun i => max (w i) (-(w i))) := by
    rw [← hbot]; exact absmax_eq_fold h hu w j
  have hle : ∀ i, max (w i) (-(w i)) ≤ a := fun i => by
    rw [ha, Finset.le_fold_max]; exact Or.inr ⟨i, Finset.mem_univ i, le_rfl⟩
  refine ⟨(abs_nonneg' (w i0)).trans (hle i0), ?_, fun h0 i => eq_zero_of_abs_le ((hle i).trans h0.le)⟩
  have : a < ⊤ := by
    rw [ha, Finset.fold_max_lt]
    exact ⟨bot_lt_top, fun i _ => abs_lt_top (hw i).1 (hw i).2⟩
  exact this.ne

end Cert.QuantLinear

end
-- ==== Proof.SameMax.lean ====
/-
  Both programs take the largest magnitude of the weights by the same reduction of the same array from the same
  initial value; the two printed texts differ only in the proofs of the reduction's side conditions, and a value
  does not depend on which proof of a side condition it was given.
-/
import proofs.«122858_j88605175316808_2_alg».proof.Proof.Gen.ReferenceIdeal.Read
import proofs.«122858_j88605175316808_2_alg».proof.Proof.Entry
import Idealize.ShloMosaic.Lib.ValueIdx

noncomputable section

namespace Cert.Bridge

open Idealize.ShloMosaic Idealize.ShloMosaic.ValueIdx

/-- A reduction's value does not depend on the proofs of its side conditions. -/
theorem reduce_irrel {α : Type} {s t u : Shape} {axes : List (Fin s.rank)} (f : α → α → α) (x : s.Idx → α) (init : u.Idx → α)
    (h h' : s.ReducesTo axes t) (hu hu' : 0 < u.numel) : Host.reduce f x init h hu = Host.reduce f x init h' hu' := rfl

/-- The kernel's largest magnitude is the reference's. -/
theorem absmax_same (w : FVec Ideal Cert.KernelIdeal.S2048x2048 .f32) :
    Cert.KernelIdeal.Entry.absmaxBy Cert.KernelIdeal.Entry.absmaxFn w ix0 = Cert.ReferenceIdeal.Read.val_main_v1 (F := Ideal) w ix0 :=
  congrFun (reduce_irrel (FloatOps.maximumf (F := Ideal) (φ := .f32)) (Host.absf w) (constant (F := Ideal) Cert.KernelIdeal.S_ .f32 0xFF800000#32)
    Cert.KernelIdeal.Facts₀.reducesTo_S2048x2048_S_d0_1 Cert.ReferenceIdeal.Facts₀.reducesTo_S2048x2048_S_d0_1 Cert.KernelIdeal.Facts₀.h_S_ Cert.ReferenceIdeal.Facts₀.h_S_) ix0

end Cert.Bridge

end
-- ==== Proof.Bridge.lean ====
/-
  The two programs compute one function of the arguments, index by index.

  At result index `(b, r, n)` the reference's contraction reads row `(b, r)` of the activations against row `n`
  of `round(w / s) · s`, with `s = a / 127` and `a` the largest magnitude of the weights. The kernel's result
  there is entry `(4096 b + r, n)` of its [16384, 2048] output (the two re-layings keep row-major order): row
  `4096 b + r` of the re-laid activations is row `(b, r)`, contracted against row `n` of `round(w / s')` — twice,
  the second time with the vanishing remainder `x − x` — and then multiplied by the guarded scale `s'`. Both
  programs take `a` by one and the same reduction; the law that joins the two forms, and the case `a = 0` where
  the two scales differ, are the algebra of the scale law; the finiteness it needs is the precondition.
-/
import proofs.«122858_j88605175316808_2_alg».proof.Proof.Gen.ReferenceIdeal.Read
import proofs.«122858_j88605175316808_2_alg».proof.Proof.Entry
import proofs.«122858_j88605175316808_2_alg».proof.Proof.Blocks
import proofs.«122858_j88605175316808_2_alg».proof.Proof.Spec
import proofs.«122858_j88605175316808_2_alg».proof.Proof.ScaleLaw
import proofs.«122858_j88605175316808_2_alg».proof.Proof.AbsMax
import proofs.«122858_j88605175316808_2_alg».proof.Proof.SameMax
import Idealize.ShloMosaic.Lib.Pipeline.Value
import Idealize.ShloMosaic.Lib.ValueIdx

noncomputable section

namespace Cert.Bridge

open Idealize.ShloMosaic Idealize.ShloMosaic.ValueIdx Cert.QuantLinear
open Cert.KernelIdeal (S16384x2048 S1x1 S_ S2048x2048 S4x4096x2048)

instance : Subsingleton S_.Idx := ⟨fun _ _ => funext fun d => d.elim0⟩

/-- Rounding to nearest fixes `0`. -/
theorem round_zero : Ideal.liftRound Ideal.roundHalfEven (0 : EReal) = 0 := by
  rw [← EReal.coe_zero, Ideal.liftRound_coe]
  have h : Ideal.roundHalfEven 0 = 0 := by unfold Ideal.roundHalfEven; norm_num
  rw [h]; simp

/-- The kernel's rank-0 scale array holds the guarded scale of the largest magnitude. -/
theorem scaleOf_apply (A : FVec Ideal S_ .f32) (j : S_.Idx) : Cert.KernelIdeal.Entry.scaleOf A j = kerScale (A j) := rfl

/-- A rounded weight: the weight over the guarded scale, rounded. -/
theorem wqOf_apply (A : FVec Ideal S_ .f32) (w : FVec Ideal S2048x2048 .f32) (n k : Fin 2048) :
    (Cert.KernelIdeal.Entry.wqOf A w (ix2 n k) : EReal)
      = Ideal.liftRound Ideal.roundHalfEven (Ideal.div (w (ix2 n k)) (kerScale (A ix0))) := by
  unfold Cert.KernelIdeal.Entry.wqOf
  show FloatOps.hostUnary .roundeven (FloatOps.hostDivf (w (ix2 n k))
    (broadcastInDim S2048x2048 ![] Cert.KernelIdeal.Facts₀.bcast_S_S2048x2048 (Cert.KernelIdeal.Entry.scaleOf A) (ix2 n k))) = _
  rw [broadcastInDim_apply _ Cert.KernelIdeal.Facts₀.bcast_S_S2048x2048 (Cert.KernelIdeal.Entry.scaleOf A) (ix2 n k) ix0 (fun a => a.elim0),
    scaleOf_apply]
  rfl

/-- The [1, 1] scale array the kernel stages, at its one entry. -/
theorem scale11_apply (A : FVec Ideal S_ .f32) :
    shapeCast S1x1 (Cert.KernelIdeal.Entry.scaleOf A) Cert.KernelIdeal.Facts₀.shapeCasts_S_S1x1 (ix2 (0 : Fin 1) (0 : Fin 1)) = kerScale (A ix0) := by
  rw [shapeCast_apply (Cert.KernelIdeal.Entry.scaleOf A) Cert.KernelIdeal.Facts₀.shapeCasts_S_S1x1 (ix2 (0 : Fin 1) (0 : Fin 1)) ix0 (by
    have h1 : S_.numel = 1 := by decide
    have h2 := (S_.rowMajor ix0).isLt
    rw [Shape.rowMajor_val_two]
    show _ = 0 * 1 + 0
    omega), scaleOf_apply]

/-- The re-laid activations: row `4096 b + r` is row `(b, r)`. -/
theorem x2_apply (x : FVec Ideal S4x4096x2048 .f32) (b : Fin 4) (r : Fin 4096) (k : Fin 2048) (hM : b.val * 4096 + r.val < 16384) :
    shapeCast S16384x2048 x Cert.KernelIdeal.Facts₀.shapeCasts_S4x4096x2048_S16384x2048 (ix2 (⟨b.val * 4096 + r.val, hM⟩ : Fin 16384) k)
      = x (ix3 b r k) :=
  shapeCast_apply x _ _ _ (by rw [Shape.rowMajor_val_three, Shape.rowMajor_val_two]; rfl)

/-- The reference's result, stage by stage, at `(b, r, n)`. -/
theorem ref_apply (x : FVec Ideal S4x4096x2048 .f32) (w : FVec Ideal S2048x2048 .f32) (b : Fin 4) (r : Fin 4096) (n : Fin 2048) :
    Cert.ReferenceIdeal.Read.val_main_v8 (F := Ideal) x w (ix3 b r n)
      = ∑ k : Fin 2048, x (ix3 b r k) * (Ideal.liftRound Ideal.roundHalfEven (Ideal.div (w (ix2 n k))
          (refScale (Cert.ReferenceIdeal.Read.val_main_v1 (F := Ideal) w ix0))) * refScale (Cert.ReferenceIdeal.Read.val_main_v1 (F := Ideal) w ix0)) := by
  have el : ∀ k : Fin 2048, Cert.ReferenceIdeal.Read.lidx_main_v8 (ix3 b r n) k = ix3 b r k := fun k =>
    funext fun a => Fin.ext (by match a with | ⟨0, _⟩ => rfl | ⟨1, _⟩ => rfl | ⟨2, _⟩ => rfl)
  have er : ∀ k : Fin 2048, Cert.ReferenceIdeal.Read.ridx_main_v8 (ix3 b r n) k = ix2 n k := fun k =>
    funext fun a => Fin.ext (by match a with | ⟨0, _⟩ => rfl | ⟨1, _⟩ => rfl)
  rw [Cert.ReferenceIdeal.Read.val_main_v8_apply]
  refine Finset.sum_congr rfl fun k _ => ?_
  rw [el, er, Cert.ReferenceIdeal.Read.val_main_v7_apply, Cert.ReferenceIdeal.Read.val_main_v5_apply,
    Cert.ReferenceIdeal.Read.val_main_v4_apply, Cert.ReferenceIdeal.Read.val_main_v3_apply,
    Cert.ReferenceIdeal.Read.val_main_v6_apply, Cert.ReferenceIdeal.Read.val_main_v2_apply]
  rfl

/-- THE BRIDGE: the reference's result is the kernel's, for finite arguments. -/
theorem result_eq (x : FVec Ideal S4x4096x2048 .f32) (w : FVec Ideal S2048x2048 .f32)
    (hx : ∀ i, x i ≠ ⊤ ∧ x i ≠ ⊥) (hw : ∀ i, w i ≠ ⊤ ∧ w i ≠ ⊥) :
    Cert.ReferenceIdeal.Read.val_main_v8 (F := Ideal) x w = Cert.KernelIdeal.Spec.resultOf x w := by
  funext i
  obtain ⟨b, r, n, rfl⟩ : ∃ (b : Fin 4) (r : Fin 4096) (n : Fin 2048), i = ix3 b r n := ⟨i 0, i 1, i 2, eq_ix3 i⟩
  have hM : b.val * 4096 + r.val < 16384 := by have := b.isLt; have := r.isLt; omega
  show _ = shapeCast S4x4096x2048 (Cert.KernelIdeal.Spec.out2Of x w) Cert.KernelIdeal.Facts₀.shapeCasts_S16384x2048_S4x4096x2048 (ix3 b r n)
  refine Eq.trans ?_ (shapeCast_apply (Cert.KernelIdeal.Spec.out2Of x w) Cert.KernelIdeal.Facts₀.shapeCasts_S16384x2048_S4x4096x2048 (ix3 b r n)
    (ix2 (⟨b.val * 4096 + r.val, hM⟩ : Fin 16384) n) (by rw [Shape.rowMajor_val_two, Shape.rowMajor_val_three]; rfl)).symm
  unfold Cert.KernelIdeal.Spec.out2Of
  rw [Cert.KernelIdeal.Blocks.G_ix2]
  unfold Cert.KernelIdeal.Blocks.Gat
  simp only [x2_apply, wqOf_apply, scale11_apply]
  rw [ref_apply, absmax_same]
  unfold Cert.KernelIdeal.Body.cell
  obtain ⟨ha0, hat, hz⟩ := absmax_facts Cert.ReferenceIdeal.Facts₀.reducesTo_S2048x2048_S_d0_1 Cert.ReferenceIdeal.Facts₀.h_S_ w ix0 (ix2 (0 : Fin 2048) (0 : Fin 2048)) hw ofBits_neg_inf
  exact (quantized_dot_eq (Ideal.liftRound Ideal.roundHalfEven) round_zero (fun k => x (ix3 b r k)) (fun k => w (ix2 n k))
    _ (fun k => hx _) ha0 hat (fun h k => hz h _)).symm

end Cert.Bridge

end
-- ==== Proof.lean ====
/-
  A linear layer with per-tensor fake-quantized weights, as a tiled kernel against its jnp reference, on the
  extended reals.

  With `a = max |w|` over the whole weight matrix, the reference contracts the activations against
  `round(w / s) · s`, `s = a / 127`. The kernel takes the scale guarded against zero (`s' = 1` when `a = 0`),
  stages the integers `round(w / s')`, and for each block of 512 rows of the re-laid activations `x` forms
  `x · Wᵀ + (x − x) · Wᵀ` (the activations split into a part that fits the narrower float format and a
  remainder: on the extended reals the narrowing is the identity and the remainder is `x − x`), multiplies by
  `s'`, and writes the block back; a re-laying returns the [4, 4096, 2048] result.

  The two are one function of finite arguments: for finite `x` the remainder is `0`; `a` is then a nonnegative
  real, so where `a ≠ 0` the two scales agree and the real factor `s` moves inside the sum, and where `a = 0`
  every weight is `0` and both results are `0` whatever the reference's `0 / 0` is taken to be. The 32 blocks tile
  the rows, and the re-layings keep row-major order. The frames are the generated ones; the idealization's one
  rewrite (widening back what was just narrowed is the identity) is its rule's statement.
-/
import proofs.«122858_j88605175316808_2_alg».proof.Defs
import proofs.«122858_j88605175316808_2_alg».proof.Proof.Gen.Kernel
import proofs.«122858_j88605175316808_2_alg».proof.Proof.Gen.Kernel.Skeleton
import proofs.«122858_j88605175316808_2_alg».proof.Proof.Gen.Kernel.Launch
import proofs.«122858_j88605175316808_2_alg».proof.Proof.Gen.Kernel.Points
import proofs.«122858_j88605175316808_2_alg».proof.Proof.Gen.Kernel.Frame
import proofs.«122858_j88605175316808_2_alg».proof.Proof.Gen.KernelIdeal
import proofs.«122858_j88605175316808_2_alg».proof.Proof.Gen.KernelIdeal.Skeleton
import proofs.«122858_j88605175316808_2_alg».proof.Proof.Gen.KernelIdeal.Launch
import proofs.«122858_j88605175316808_2_alg».proof.Proof.Gen.KernelIdeal.Points
import proofs.«122858_j88605175316808_2_alg».proof.Proof.Gen.KernelIdeal.Frame
import proofs.«122858_j88605175316808_2_alg».proof.Proof.Gen.ReferenceIdeal
import proofs.«122858_j88605175316808_2_alg».proof.Proof.Gen.Pre_finite_inputs
import proofs.«122858_j88605175316808_2_alg».proof.Proof.Gen.ReferenceIdeal.Run
import proofs.«122858_j88605175316808_2_alg».proof.Proof.Gen.ReferenceIdeal.Read
import proofs.«122858_j88605175316808_2_alg».proof.Proof.Finite
import proofs.«122858_j88605175316808_2_alg».proof.Proof.KernelRun
import proofs.«122858_j88605175316808_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Widening back what was just narrowed is the identity on the extended reals. -/
theorem preserves : Cert.preserves_Kernel_KernelIdeal := IdealRules.truncf_extf.statement _ .f32 .bf16

/-- From memories agreeing on the finite arguments, both programs end with the same result. -/
theorem algebraic : Cert.algebraic_KernelIdeal_ReferenceIdeal := by
  intro m ρ m' ρ' hpre hagree
  refine ⟨fun c => Cert.KernelIdeal.KernelRun.result m c, Cert.KernelIdeal.KernelRun.run m ρ, ?_⟩
  refine (θ_run Cert.ReferenceIdeal.defs _ _).mono (fun _ h c => ⟨?_, (h c).2⟩)
    (Cert.ReferenceIdeal.Value.run (F := Ideal) m' ρ')
  have hfin := Cert.QuantLinear.finite_of_pre _ _ (hpre c)
  rw [(h c).1, (hagree c).1, (hagree c).2, Cert.ReferenceIdeal.Read.val_main_v8_eq,
    Cert.Bridge.result_eq _ _ hfin.1 hfin.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
